-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x640x5x5 : Shape := ⟨4, ![128, 640, 5, 5]⟩
abbrev S64x128x640x5x5 : Shape := ⟨5, ![64, 128, 640, 5, 5]⟩
abbrev S_ : Shape := ⟨0, ![]⟩

class Facts : Prop where
  bcast_S_S128x640x5x5 : S_.BroadcastsInDim S128x640x5x5 (![] : Fin 0 → Fin S128x640x5x5.rank)
  reducesTo_S128x640x5x5_S_d0_1_2_3 : S128x640x5x5.ReducesTo [0, 1, 2, 3] S_
  h_S_ : 0 < S_.numel
  bcast_S_S64x128x640x5x5 : S_.BroadcastsInDim S64x128x640x5x5 (![] : Fin 0 → Fin S64x128x640x5x5.rank)
  reducesTo_S64x128x640x5x5_S_d0_1_2_3_4 : S64x128x640x5x5.ReducesTo [0, 1, 2, 3, 4] S_

variable [Facts]

def fn {F : FTy → Type} [FloatOps F] (main_arg0 : FVec F S128x640x5x5 .f32) (main_arg1 : FVec F S64x128x640x5x5 .f32) : IVec S_ 1 :=
  let main_v0 : FVec F S128x640x5x5 .f32 := Host.absf main_arg0
  let main_cst : FVec F S_ .f32 := constant S_ .f32 0x7F800000#32
  let main_v1 : FVec F S128x640x5x5 .f32 := broadcastInDim S128x640x5x5 ![] bcast_S_S128x640x5x5 main_cst
  let main_v2 : IVec S128x640x5x5 1 := cmpf .olt main_v0 main_v1
  let main_c : IVec S_ 1 := constantI S_ 1 1#1
  let main_v3 : IVec S_ 1 := (fun x v => Host.reduce IntOp.andi x v reducesTo_S128x640x5x5_S_d0_1_2_3 h_S_) main_v2 main_c
  let main_v4 : FVec F S64x128x640x5x5 .f32 := Host.absf main_arg1
  let main_cst_0 : FVec F S_ .f32 := constant S_ .f32 0x7F800000#32
  let main_v5 : FVec F S64x128x640x5x5 .f32 := broadcastInDim S64x128x640x5x5 ![] bcast_S_S64x128x640x5x5 main_cst_0
  let main_v6 : IVec S64x128x640x5x5 1 := cmpf .olt main_v4 main_v5
  let main_c_1 : IVec S_ 1 := constantI S_ 1 1#1
  let main_v7 : IVec S_ 1 := (fun x v => Host.reduce IntOp.andi x v reducesTo_S64x128x640x5x5_S_d0_1_2_3_4 h_S_) main_v6 main_c_1
  let main_v8 : IVec S_ 1 := andi main_v3 main_v7
  main_v8
-- ==== Kernel.lean ====
abbrev S128x640x5x5 : Shape := ⟨4, ![128, 640, 5, 5]⟩
abbrev S64x128x640x5x5 : Shape := ⟨5, ![64, 128, 640, 5, 5]⟩
abbrev S128x16000 : Shape := ⟨2, ![128, 16000]⟩
abbrev S64x128x16000 : Shape := ⟨3, ![64, 128, 16000]⟩
abbrev S64x128 : Shape := ⟨2, ![64, 128]⟩
abbrev S32x128x640 : Shape := ⟨3, ![32, 128, 640]⟩
abbrev S128x640 : Shape := ⟨2, ![128, 640]⟩
abbrev S32x128 : Shape := ⟨2, ![32, 128]⟩
abbrev S1x128 : Shape := ⟨2, ![1, 128]⟩
abbrev S32x1 : Shape := ⟨2, ![32, 1]⟩
abbrev S32x640 : Shape := ⟨2, ![32, 640]⟩
abbrev S128 : Shape := ⟨1, ![128]⟩
abbrev S32 : Shape := ⟨1, ![32]⟩
abbrev S128x64 : Shape := ⟨2, ![128, 64]⟩

abbrev nBuf : Space → Nat
  | .hbm => 6
  | .vmem => 9
  | .smem => 0
  | _ => 0

abbrev bufTy : (tb : Table) → Fin (tcTables nBuf tb) → BufTy
  | .hbm, ⟨0, _⟩ => ⟨S128x640x5x5, .f32⟩
  | .hbm, ⟨1, _⟩ => ⟨S64x128x640x5x5, .f32⟩
  | .hbm, ⟨2, _⟩ => ⟨S128x16000, .f32⟩
  | .hbm, ⟨3, _⟩ => ⟨S64x128x16000, .f32⟩
  | .hbm, ⟨4, _⟩ => ⟨S64x128, .f32⟩
  | .hbm, ⟨5, _⟩ => ⟨S128x64, .f32⟩
  | .local _ .vmem, ⟨0, _⟩ => ⟨S32x128x640, .f32⟩
  | .local _ .vmem, ⟨1, _⟩ => ⟨S32x128x640, .f32⟩
  | .local _ .vmem, ⟨2, _⟩ => ⟨S128x640, .f32⟩
  | .local _ .vmem, ⟨3, _⟩ => ⟨S128x640, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S1x128, .f32⟩
  | .local _ .vmem, ⟨8, _⟩ => ⟨S32x1, .f32⟩
  | _, _ => ⟨S128x640x5x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v34 : BitVec 1 := Scalar.cmpi .eq arg1 c24_i32
  let v35 : BitVec 32 := Scalar.extui v34
  let c0_i32_21 : BitVec 32 := 0#32
  let v36 : BitVec 1 := Scalar.cmpi .ne v35 c0_i32_21
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S128x640x5x5_S128x16000 : S128x640x5x5.ShapeCasts S128x16000
  shapeCasts_S64x128x640x5x5_S64x128x16000 : S64x128x640x5x5.ShapeCasts S64x128x16000
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x128x640_S32x128x640_0_0_0 : ∀ a, (![0, 0, 0] : Fin 3 → Nat) a + S32x128x640.size a ≤ S32x128x640.size a
  h_S32x128x640 : 0 < S32x128x640.numel
  shapeCasts_S32x128x640_S32x128x640 : S32x128x640.ShapeCasts S32x128x640
  reduces_S32x128x640_S32x640 : S32x128x640.Reduces [1] S32x640
  inb_S128x640_S128x640_0_0 : ∀ a, (![0, 0] : Fin 2 → Nat) a + S128x640.size a ≤ S128x640.size a
  h_S128x640 : 0 < S128x640.numel
  shapeCasts_S128x640_S128x640 : S128x640.ShapeCasts S128x640
  reduces_S128x640_S128 : S128x640.Reduces [1] S128
  shapeCasts_S128_S1x128 : S128.ShapeCasts S1x128
  reduces_S32x640_S32 : S32x640.Reduces [1] S32
  shapeCasts_S32_S32x1 : S32.ShapeCasts S32x1
  bitsLt_bf16_f32 : FTy.bits .bf16 < FTy.bits .f32
  broadcasts_S1x128_S32x128 : S1x128.Broadcasts S32x128
  broadcasts_S32x1_S32x128 : S32x1.Broadcasts S32x128
  transposes_S64x128_S128x64_1_0 : S64x128.Transposes [1, 0] S128x64
  dot_S32x640_S128x640_S32x128_1_1_0_0_n_n_wf : DotDims.WF S32x640 S128x640 S32x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x640.size a ≤ S64x128x16000.size a
  hwx0_0 : ∀ i : grid0.Coords, EltTy.bits .f32 = 32 ∨ (Rect.block (s := S64x128x16000) S32x128x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x640.size a ≤ S128x16000.size a
  hwx0_1 : ∀ i : grid0.Coords, EltTy.bits .f32 = 32 ∨ (Rect.block (s := S128x16000) S128x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x128.size a
  hwx0_2 : ∀ i : grid0.Coords, EltTy.bits .f32 = 32 ∨ (Rect.block (s := S64x128) S32x128.size (cc0_transform_2 i) (hinb0_2 i)).WholeWords (EltTy.packing .f32)

variable [Facts₀]

def dot_S32x640_S128x640_S32x128_1_1_0_0_n_n : DotDims S32x640 S128x640 S32x128 where
  lhsContracting := [1]
  rhsContracting := [1]
  lhsNonContracting := [0]
  rhsNonContracting := [0]
  lhsBatch := []
  rhsBatch := []
  wf := dot_S32x640_S128x640_S32x128_1_1_0_0_n_n_wf

abbrev win0_0 : Pipeline.Window sig grid0 :=
  Pipeline.Window.ofSpec (Memref.whole main_v1) S32x128x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x640x5x5 : Shape := ⟨4, ![128, 640, 5, 5]⟩
abbrev S64x128x640x5x5 : Shape := ⟨5, ![64, 128, 640, 5, 5]⟩
abbrev S64x128x16000 : Shape := ⟨3, ![64, 128, 16000]⟩
abbrev S128x16000 : Shape := ⟨2, ![128, 16000]⟩
abbrev S_ : Shape := ⟨0, ![]⟩
abbrev S64x16000 : Shape := ⟨2, ![64, 16000]⟩
abbrev S128 : Shape := ⟨1, ![128]⟩
abbrev S128x1 : Shape := ⟨2, ![128, 1]⟩
abbrev S64 : Shape := ⟨1, ![64]⟩
abbrev S1x64 : Shape := ⟨2, ![1, 64]⟩
abbrev S128x64 : Shape := ⟨2, ![128, 64]⟩

abbrev nBuf : Space → Nat
  | .hbm => 26
  | .vmem => 0
  | .smem => 0
  | _ => 0

abbrev bufTy : (tb : Table) → Fin (tcTables nBuf tb) → BufTy
  | .hbm, ⟨0, _⟩ => ⟨S128x640x5x5, .f32⟩
  | .hbm, ⟨1, _⟩ => ⟨S64x128x640x5x5, .f32⟩
  | .hbm, ⟨2, _⟩ => ⟨S64x128x16000, .f32⟩
  | .hbm, ⟨3, _⟩ => ⟨S128x16000, .f32⟩
  | .hbm, ⟨4, _⟩ => ⟨S_, .f32⟩
  | .hbm, ⟨5, _⟩ => ⟨S64x16000, .f32⟩
  | .hbm, ⟨6, _⟩ => ⟨S_, .f32⟩
  | .hbm, ⟨7, _⟩ => ⟨S64x16000, .f32⟩
  | .hbm, ⟨8, _⟩ => ⟨S64x16000, .f32⟩
  | .hbm, ⟨9, _⟩ => ⟨S128x16000, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S64x16000, .f32⟩
  | .hbm, ⟨14, _⟩ => ⟨S_, .f32⟩
  | .hbm, ⟨15, _⟩ => ⟨S64, .f32⟩
  | .hbm, ⟨16, _⟩ => ⟨S1x64, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S_, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S128x64, .f32⟩
  | _, _ => ⟨S128x640x5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  shapeCasts_S64x128x640x5x5_S64x128x16000 : S64x128x640x5x5.ShapeCasts S64x128x16000
  shapeCasts_S128x640x5x5_S128x16000 : S128x640x5x5.ShapeCasts S128x16000
  reducesTo_S64x128x16000_S64x16000_d1 : S64x128x16000.ReducesTo [1] S64x16000
  h_S_ : 0 < S_.numel
  bcast_S_S64x16000 : S_.BroadcastsInDim S64x16000 (![] : Fin 0 → Fin S64x16000.rank)
  reducesTo_S128x16000_S128_d1 : S128x16000.ReducesTo [1] S128
  bcast_S128_S128x1_0 : S128.BroadcastsInDim S128x1 (![0] : Fin 1 → Fin S128x1.rank)
  reducesTo_S64x16000_S64_d1 : S64x16000.ReducesTo [1] S64
  bcast_S64_S1x64_1 : S64.BroadcastsInDim S1x64 (![1] : Fin 1 → Fin S1x64.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  dot_S128x16000_S64x16000_S128x64_1_1_0_0_n_n_wf : DotDims.WF S128x16000 S64x16000 S128x64 [1] [1] [0] [0] [] []

variable [Facts₀]

def dot_S128x16000_S64x16000_S128x64_1_1_0_0_n_n : DotDims S128x16000 S64x16000 S128x64 where
  lhsContracting := [1]
  rhsContracting := [1]
  lhsNonContracting := [0]
  rhsNonContracting := [0]
  lhsBatch := []
  rhsBatch := []
  wf := dot_S128x16000_S64x16000_S128x64_1_1_0_0_n_n_wf

class Facts : Prop extends Facts₀ where

variable [Facts]
-- ==== Proof.Steps.lean ====
/-
  What one grid step leaves in the three accumulators and in the output block, as values.

  The grid walks, for each half of the classes, the 25 feature tiles in order. A step at the first tile resets the
  three accumulators to zero blocks and then adds its tile's contribution; a step at a later tile adds its
  contribution to what the tile before left; the step at the last tile also writes the output block from the
  accumulators it has just updated. Each accumulator is written by one store covering it (after the reset store at a
  first tile), so what it holds afterwards is that store's value, a function of the step's two input blocks and of
  what the accumulator held before. These hold for float values of any kind.
-/
import proofs.«120106_j4698694222630_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Steps

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a first feature tile the dot-product accumulator ends at the step's value over the zero block it was just reset to. -/
theorem first_0 (c : Dev nD) (i : grid0.Coords) (a2 : Memref sig .tc .vmem S32x128x640 .f32) (h2 : a2.IsWhole) (a3 : Memref sig .tc .vmem S128x640 .f32) (h3 : a3.IsWhole) (a4 : Memref sig .tc .vmem S32x128 .f32) (h4 : a4.IsWhole) (a5 : Memref sig .tc .vmem S32x128 .f32) (h5 : a5.IsWhole) (a6 : Memref sig .tc .vmem S1x128 .f32) (h6 : a6.IsWhole) (a7 : Memref sig .tc .vmem S32x1 .f32) (h7 : a7.IsWhole) (hc0 : cond0_0 i) (hc1 : ¬cond0_1 i) (x0 : Vec F S32x128x640 .f32) (x1 : Vec F S128x640 .f32) :
    sout0_A_0 c i a2 h2 a3 h3 a4 h4 a5 h5 a6 h6 a7 h7 hc0 hc1 x0 x1 = k0_pay1 (k0_pay10 x0 x1 k0_pay3) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S32x128) hz2, View.readCov_unit_zero (S := S32x128) _ hz2]
  simp only [View.readAt_eq_ld, h2.read_unread, h3.read_unread, h5.read_unread, h6.read_unread, h7.read_unread, View.ld_unit_zero (S := S32x128) hz2, View.ld_unit_zero (S := S1x128) hz2, View.ld_unit_zero (S := S32x1) hz2, View.ld_unit_zero (S := S128x640) hz2, View.ld_unit_zero (S := S32x128x640) hz3]

/-- At a first feature tile the query-norm accumulator ends at the step's value over the zero block it was just reset to. -/
theorem first_1 (c : Dev nD) (i : grid0.Coords) (a2 : Memref sig .tc .vmem S32x128x640 .f32) (h2 : a2.IsWhole) (a3 : Memref sig .tc .vmem S128x640 .f32) (h3 : a3.IsWhole) (a4 : Memref sig .tc .vmem S32x128 .f32) (h4 : a4.IsWhole) (a5 : Memref sig .tc .vmem S32x128 .f32) (h5 : a5.IsWhole) (a6 : Memref sig .tc .vmem S1x128 .f32) (h6 : a6.IsWhole) (a7 : Memref sig .tc .vmem S32x1 .f32) (h7 : a7.IsWhole) (hc0 : cond0_0 i) (hc1 : ¬cond0_1 i) (x0 : Vec F S32x128x640 .f32) (x1 : Vec F S128x640 .f32) :
    sout0_A_1 c i a2 h2 a3 h3 a4 h4 a5 h5 a6 h6 a7 h7 hc0 hc1 x0 x1 = k0_pay8 x1 k0_pay4 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1x128) hz2, View.readCov_unit_zero (S := S1x128) _ hz2]
  simp only [View.readAt_eq_ld, h2.read_unread, h3.read_unread, h5.read_unread, h6.read_unread, h7.read_unread, View.ld_unit_zero (S := S32x128) hz2, View.ld_unit_zero (S := S1x128) hz2, View.ld_unit_zero (S := S32x1) hz2, View.ld_unit_zero (S := S128x640) hz2, View.ld_unit_zero (S := S32x128x640) hz3]

/-- At a first feature tile the prototype-norm accumulator ends at the step's value over the zero block it was just reset to. -/
theorem first_2 (c : Dev nD) (i : grid0.Coords) (a2 : Memref sig .tc .vmem S32x128x640 .f32) (h2 : a2.IsWhole) (a3 : Memref sig .tc .vmem S128x640 .f32) (h3 : a3.IsWhole) (a4 : Memref sig .tc .vmem S32x128 .f32) (h4 : a4.IsWhole) (a5 : Memref sig .tc .vmem S32x128 .f32) (h5 : a5.IsWhole) (a6 : Memref sig .tc .vmem S1x128 .f32) (h6 : a6.IsWhole) (a7 : Memref sig .tc .vmem S32x1 .f32) (h7 : a7.IsWhole) (hc0 : cond0_0 i) (hc1 : ¬cond0_1 i) (x0 : Vec F S32x128x640 .f32) (x1 : Vec F S128x640 .f32) :
    sout0_A_2 c i a2 h2 a3 h3 a4 h4 a5 h5 a6 h6 a7 h7 hc0 hc1 x0 x1 = k0_pay9 x0 k0_pay5 := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S32x1) hz2, View.readCov_unit_zero (S := S32x1) _ hz2]
  simp only [View.readAt_eq_ld, h2.read_unread, h3.read_unread, h5.read_unread, h6.read_unread, h7.read_unread, View.ld_unit_zero (S := S32x128) hz2, View.ld_unit_zero (S := S1x128) hz2, View.ld_unit_zero (S := S32x1) hz2, View.ld_unit_zero (S := S128x640) hz2, View.ld_unit_zero (S := S32x128x640) hz3]

/-- At a middle feature tile the dot-product accumulator ends at the step's value over what the tile before left. -/
theorem middle_0 (c : Dev nD) (i : grid0.Coords) (a2 : Memref sig .tc .vmem S32x128x640 .f32) (h2 : a2.IsWhole) (a3 : Memref sig .tc .vmem S128x640 .f32) (h3 : a3.IsWhole) (a4 : Memref sig .tc .vmem S32x128 .f32) (h4 : a4.IsWhole) (a5 : Memref sig .tc .vmem S32x128 .f32) (h5 : a5.IsWhole) (a6 : Memref sig .tc .vmem S1x128 .f32) (h6 : a6.IsWhole) (a7 : Memref sig .tc .vmem S32x1 .f32) (h7 : a7.IsWhole) (hc0 : ¬cond0_0 i) (hc1 : ¬cond0_1 i) (x0 : Vec F S32x128x640 .f32) (x1 : Vec F S128x640 .f32) (xs0 : Vec F S32x128 .f32) (xs1 : Vec F S1x128 .f32) (xs2 : Vec F S32x1 .f32) :
    sout0_B_0 c i a2 h2 a3 h3 a4 h4 a5 h5 a6 h6 a7 h7 hc0 hc1 x0 x1 xs0 xs1 xs2 = k0_pay1 (k0_pay10 x0 x1 xs0) := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread, View.ld_unit_zero (S := S32x128) hz2, View.ld_unit_zero (S := S1x128) hz2, View.ld_unit_zero (S := S32x1) hz2, View.ld_unit_zero (S := S128x640) hz2, View.ld_unit_zero (S := S32x128x640) hz3]

/-- At a middle feature tile the query-norm accumulator ends at the step's value over what the tile before left. -/
theorem middle_1 (c : Dev nD) (i : grid0.Coords) (a2 : Memref sig .tc .vmem S32x128x640 .f32) (h2 : a2.IsWhole) (a3 : Memref sig .tc .vmem S128x640 .f32) (h3 : a3.IsWhole) (a4 : Memref sig .tc .vmem S32x128 .f32) (h4 : a4.IsWhole) (a5 : Memref sig .tc .vmem S32x128 .f32) (h5 : a5.IsWhole) (a6 : Memref sig .tc .vmem S1x128 .f32) (h6 : a6.IsWhole) (a7 : Memref sig .tc .vmem S32x1 .f32) (h7 : a7.IsWhole) (hc0 : ¬cond0_0 i) (hc1 : ¬cond0_1 i) (x0 : Vec F S32x128x640 .f32) (x1 : Vec F S128x640 .f32) (xs0 : Vec F S32x128 .f32) (xs1 : Vec F S1x128 .f32) (xs2 : Vec F S32x1 .f32) :
    sout0_B_1 c i a2 h2 a3 h3 a4 h4 a5 h5 a6 h6 a7 h7 hc0 hc1 x0 x1 xs0 xs1 xs2 = k0_pay8 x1 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread, View.ld_unit_zero (S := S32x128) hz2, View.ld_unit_zero (S := S1x128) hz2, View.ld_unit_zero (S := S32x1) hz2, View.ld_unit_zero (S := S128x640) hz2, View.ld_unit_zero (S := S32x128x640) hz3]

/-- At a middle feature tile the prototype-norm accumulator ends at the step's value over what the tile before left. -/
theorem middle_2 (c : Dev nD) (i : grid0.Coords) (a2 : Memref sig .tc .vmem S32x128x640 .f32) (h2 : a2.IsWhole) (a3 : Memref sig .tc .vmem S128x640 .f32) (h3 : a3.IsWhole) (a4 : Memref sig .tc .vmem S32x128 .f32) (h4 : a4.IsWhole) (a5 : Memref sig .tc .vmem S32x128 .f32) (h5 : a5.IsWhole) (a6 : Memref sig .tc .vmem S1x128 .f32) (h6 : a6.IsWhole) (a7 : Memref sig .tc .vmem S32x1 .f32) (h7 : a7.IsWhole) (hc0 : ¬cond0_0 i) (hc1 : ¬cond0_1 i) (x0 : Vec F S32x128x640 .f32) (x1 : Vec F S128x640 .f32) (xs0 : Vec F S32x128 .f32) (xs1 : Vec F S1x128 .f32) (xs2 : Vec F S32x1 .f32) :
    sout0_B_2 c i a2 h2 a3 h3 a4 h4 a5 h5 a6 h6 a7 h7 hc0 hc1 x0 x1 xs0 xs1 xs2 = k0_pay9 x0 xs2 := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread, View.ld_unit_zero (S := S32x128) hz2, View.ld_unit_zero (S := S1x128) hz2, View.ld_unit_zero (S := S32x1) hz2, View.ld_unit_zero (S := S128x640) hz2, View.ld_unit_zero (S := S32x128x640) hz3]

/-- At a last feature tile the dot-product accumulator ends at the step's value over what the tile before left. -/
theorem last_0 (c : Dev nD) (i : grid0.Coords) (a2 : Memref sig .tc .vmem S32x128x640 .f32) (h2 : a2.IsWhole) (a3 : Memref sig .tc .vmem S128x640 .f32) (h3 : a3.IsWhole) (a4 : Memref sig .tc .vmem S32x128 .f32) (h4 : a4.IsWhole) (a5 : Memref sig .tc .vmem S32x128 .f32) (h5 : a5.IsWhole) (a6 : Memref sig .tc .vmem S1x128 .f32) (h6 : a6.IsWhole) (a7 : Memref sig .tc .vmem S32x1 .f32) (h7 : a7.IsWhole) (hc0 : ¬cond0_0 i) (hc1 : cond0_1 i) (x0 : Vec F S32x128x640 .f32) (x1 : Vec F S128x640 .f32) (xs0 : Vec F S32x128 .f32) (xs1 : Vec F S1x128 .f32) (xs2 : Vec F S32x1 .f32) :
    sout0_C_0 c i a2 h2 a3 h3 a4 h4 a5 h5 a6 h6 a7 h7 hc0 hc1 x0 x1 xs0 xs1 xs2 = k0_pay1 (k0_pay10 x0 x1 xs0) := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread, View.ld_unit_zero (S := S32x128) hz2, View.ld_unit_zero (S := S1x128) hz2, View.ld_unit_zero (S := S32x1) hz2, View.ld_unit_zero (S := S128x640) hz2, View.ld_unit_zero (S := S32x128x640) hz3]

/-- At a last feature tile the query-norm accumulator ends at the step's value over what the tile before left. -/
theorem last_1 (c : Dev nD) (i : grid0.Coords) (a2 : Memref sig .tc .vmem S32x128x640 .f32) (h2 : a2.IsWhole) (a3 : Memref sig .tc .vmem S128x640 .f32) (h3 : a3.IsWhole) (a4 : Memref sig .tc .vmem S32x128 .f32) (h4 : a4.IsWhole) (a5 : Memref sig .tc .vmem S32x128 .f32) (h5 : a5.IsWhole) (a6 : Memref sig .tc .vmem S1x128 .f32) (h6 : a6.IsWhole) (a7 : Memref sig .tc .vmem S32x1 .f32) (h7 : a7.IsWhole) (hc0 : ¬cond0_0 i) (hc1 : cond0_1 i) (x0 : Vec F S32x128x640 .f32) (x1 : Vec F S128x640 .f32) (xs0 : Vec F S32x128 .f32) (xs1 : Vec F S1x128 .f32) (xs2 : Vec F S32x1 .f32) :
    sout0_C_1 c i a2 h2 a3 h3 a4 h4 a5 h5 a6 h6 a7 h7 hc0 hc1 x0 x1 xs0 xs1 xs2 = k0_pay8 x1 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread, View.ld_unit_zero (S := S32x128) hz2, View.ld_unit_zero (S := S1x128) hz2, View.ld_unit_zero (S := S32x1) hz2, View.ld_unit_zero (S := S128x640) hz2, View.ld_unit_zero (S := S32x128x640) hz3]

/-- At a last feature tile the prototype-norm accumulator ends at the step's value over what the tile before left. -/
theorem last_2 (c : Dev nD) (i : grid0.Coords) (a2 : Memref sig .tc .vmem S32x128x640 .f32) (h2 : a2.IsWhole) (a3 : Memref sig .tc .vmem S128x640 .f32) (h3 : a3.IsWhole) (a4 : Memref sig .tc .vmem S32x128 .f32) (h4 : a4.IsWhole) (a5 : Memref sig .tc .vmem S32x128 .f32) (h5 : a5.IsWhole) (a6 : Memref sig .tc .vmem S1x128 .f32) (h6 : a6.IsWhole) (a7 : Memref sig .tc .vmem S32x1 .f32) (h7 : a7.IsWhole) (hc0 : ¬cond0_0 i) (hc1 : cond0_1 i) (x0 : Vec F S32x128x640 .f32) (x1 : Vec F S128x640 .f32) (xs0 : Vec F S32x128 .f32) (xs1 : Vec F S1x128 .f32) (xs2 : Vec F S32x1 .f32) :
    sout0_C_2 c i a2 h2 a3 h3 a4 h4 a5 h5 a6 h6 a7 h7 hc0 hc1 x0 x1 xs0 xs1 xs2 = k0_pay9 x0 xs2 := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread, View.ld_unit_zero (S := S32x128) hz2, View.ld_unit_zero (S := S1x128) hz2, View.ld_unit_zero (S := S32x1) hz2, View.ld_unit_zero (S := S128x640) hz2, View.ld_unit_zero (S := S32x128x640) hz3]

/-- At a last feature tile the output block is written: the final expression of the three accumulators as the
    same step has just left them. -/
theorem last_out (c : Dev nD) (i : grid0.Coords) (a2 : Memref sig .tc .vmem S32x128x640 .f32) (h2 : a2.IsWhole) (a3 : Memref sig .tc .vmem S128x640 .f32) (h3 : a3.IsWhole) (a4 : Memref sig .tc .vmem S32x128 .f32) (h4 : a4.IsWhole) (a5 : Memref sig .tc .vmem S32x128 .f32) (h5 : a5.IsWhole) (a6 : Memref sig .tc .vmem S1x128 .f32) (h6 : a6.IsWhole) (a7 : Memref sig .tc .vmem S32x1 .f32) (h7 : a7.IsWhole) (hc0 : ¬cond0_0 i) (hc1 : cond0_1 i) (x0 : Vec F S32x128x640 .f32) (x1 : Vec F S128x640 .f32) (xs0 : Vec F S32x128 .f32) (xs1 : Vec F S1x128 .f32) (xs2 : Vec F S32x1 .f32) :
    out0_C_2 c i a2 h2 a3 h3 a4 h4 a5 h5 a6 h6 a7 h7 hc0 hc1 x0 x1 xs0 xs1 xs2
      = k0_pay2 (k0_pay8 x1 xs1) (k0_pay9 x0 xs2) (k0_pay1 (k0_pay10 x0 x1 xs0)) := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  sl_unfold_words
  rw [View.canon_unit_zero hz2, View.readCov_unit_zero (S := S1x128) _ hz2, View.readCov_unit_zero (S := S32x1) _ hz2,
    View.readCov_unit_zero (S := S32x128) _ hz2]
  simp only [View.readAt_eq_ld, h2.read_unread, h3.read_unread, h5.read_unread, h6.read_unread, h7.read_unread, View.ld_unit_zero (S := S32x128) hz2, View.ld_unit_zero (S := S1x128) hz2, View.ld_unit_zero (S := S32x1) hz2, View.ld_unit_zero (S := S128x640) hz2, View.ld_unit_zero (S := S32x128x640) hz3]

end Cert.KernelIdeal.Steps

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibMidSum.lean ====
/-
  The sum over the middle axis of a three-axis array, read at an index, over the extended reals.

  For an a × s × b array, a vector reduction with an add body over axis 1 from the neutral accumulator is, at
  (p, q), the sum over the s middle coordinates k of the entries (p, k, q).
-/
import Idealize.ShloMosaic.Lib.ValueIdx
import Idealize.ShloMosaic.PureOps.Ideal.Laws
import Idealize.ShloMosaic.PureOps.Reduce

noncomputable section

open scoped BigOperators

namespace Idealize.ShloMosaic.MidSum

open Idealize.ShloMosaic Idealize.ShloMosaic.ValueIdx

variable {a s b : Nat}

/-- The kept coordinates (p, q) with the middle coordinate k put back are (p, k, q). -/
theorem lift_mid (h : (⟨3, ![a, s, b]⟩ : Shape).Reduces [1] (⟨2, ![a, b]⟩ : Shape)) (p : Fin a) (q : Fin b)
    (k : Fin ((⟨3, ![a, s, b]⟩ : Shape).size 1)) : h.lift (ix2 p q) k = ix3 p (⟨k.val, k.isLt⟩ : Fin s) q := by
  funext c; apply Fin.ext
  fin_cases c <;> rfl

/-- A vector reduction's sum over the middle axis. -/
theorem midSum_vector (src : FVec Ideal ⟨3, ![a, s, b]⟩ .f32) (acc : BitVec 32)
    (h : (⟨3, ![a, s, b]⟩ : Shape).Reduces [1] (⟨2, ![a, b]⟩ : Shape)) (hφ : FKind.Formats .f32)
    (hacc : acc = FKind.add.neutral .f32 hφ) (p : Fin a) (q : Fin b) :
    multiReduction .add [1] ⟨2, ![a, b]⟩ src acc h hφ hacc (ix2 p q) = ∑ k : Fin s, src (ix3 p k q) := by
  refine (Ideal.multiReduction_add_single src acc h hφ hacc (ix2 p q)).trans ?_
  exact Finset.sum_congr rfl fun k _ => congrArg src (lift_mid h p q k)

end Idealize.ShloMosaic.MidSum

end
-- ==== Proof.StepValues.lean ====
/-
  One grid step's arithmetic, entry by entry, over the extended reals.

  A step holds a 32 × 128 × 640 block x0 of the support set (32 classes, all 128 shots, 640 features) and a
  128 × 640 block x1 of the queries. Its prototype tile is the shot mean, p(r, w) = (Σ_s x0(r, s, w)) / 128. It adds
  Σ_w x1(b, w)² to the query-norm row at b, Σ_w p(r, w)² to the prototype-norm column at r, and
  Σ_w p(r, w) · x1(b, w) to the dot-product block at (r, b) — the matrix product contracts the feature axis of both
  factors, and rounding a factor to a narrower format changes nothing here. The final expression at (r, b) is
  0 − ((row(b) + column(r)) − 2 · dot(r, b)).
-/
import proofs.«120106_j4698694222630_2_alg».proof.Proof.Gen.KernelIdeal.Skeleton
import proofs.«120106_j4698694222630_2_alg».proof.Proof.LibRowOps
import proofs.«120106_j4698694222630_2_alg».proof.Proof.LibMidSum
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.StepValues

open Cert.KernelIdeal Cert.KernelIdeal.Gen

/-- A cast of a block to its own shape is the block. -/
theorem pay1_eq {F : FTy → Type} [FloatOps F] (v : FVec F S32x128 .f32) : k0_pay1 v = v := shapeCast_self _ _
theorem pay7_eq {F : FTy → Type} [FloatOps F] (x1 : Vec F S128x640 .f32) : k0_pay7 x1 = x1 := shapeCast_self _ _

/-- The zero blocks a first tile resets the accumulators to. -/
theorem pay3_apply (i : S32x128.Idx) : k0_pay3 (F := Ideal) i = Ideal.ofBits .f32 0x00000000#32 := rfl
theorem pay4_apply (i : S1x128.Idx) : k0_pay4 (F := Ideal) i = Ideal.ofBits .f32 0x00000000#32 := rfl
theorem pay5_apply (i : S32x1.Idx) : k0_pay5 (F := Ideal) i = Ideal.ofBits .f32 0x00000000#32 := rfl

/-- THE PROTOTYPE TILE: class r's mean over the 128 shots at feature w of the block. -/
theorem pay6_apply (x0 : FVec Ideal S32x128x640 .f32) (r : Fin 32) (w : Fin 640) :
    k0_pay6 (F := Ideal) x0 (ix2 r w)
      = Ideal.div (∑ s : Fin 128, x0 (ix3 r s w)) (Ideal.ofBits .f32 0x43000000#32) := by
  unfold k0_pay6
  show Ideal.div (multiReduction .add [1] S32x640 (shapeCast S32x128x640 x0 shapeCasts_S32x128x640_S32x128x640)
      0x00000000#32 reduces_S32x128x640_S32x640 (.inl rfl) rfl (ix2 r w)) (Ideal.ofBits .f32 0x43000000#32) = _
  rw [shapeCast_self]
  exact congrArg (fun s => Ideal.div s (Ideal.ofBits .f32 0x43000000#32))
    (MidSum.midSum_vector x0 0x00000000#32 reduces_S32x128x640_S32x640 (.inl rfl) rfl r w)

/-- THE QUERY-NORM ROW after the step: what it held at b plus the sum of the squares of query b's block row. -/
theorem pay8_apply (x1 : FVec Ideal S128x640 .f32) (ys1 : FVec Ideal S1x128 .f32) (u : Fin 1) (b : Fin 128) :
    k0_pay8 (F := Ideal) x1 ys1 (ix2 u b) = ys1 (ix2 u b) + ∑ w : Fin 640, x1 (ix2 b w) * x1 (ix2 b w) := by
  unfold k0_pay8
  rw [pay7_eq]
  show (shapeCast S1x128 (addf ys1 (shapeCast S1x128 (multiReduction .add [1] S128 (mulf x1 x1) 0x00000000#32
      reduces_S128x640_S128 (.inl rfl) rfl) shapeCasts_S128_S1x128)) shapeCasts_S1x128_S1x128) (ix2 u b) = _
  rw [shapeCast_self]
  refine congrArg (fun s => ys1 (ix2 u b) + s) ?_
  refine (shapeCast_a_1a_apply _ shapeCasts_S128_S1x128 u b).trans ?_
  exact RowOps.rowSum_vector (mulf x1 x1) 0x00000000#32 reduces_S128x640_S128 (.inl rfl) rfl b

/-- THE PROTOTYPE-NORM COLUMN after the step: what it held at r plus the sum of the squares of prototype r's tile. -/
theorem pay9_apply (x0 : FVec Ideal S32x128x640 .f32) (ys2 : FVec Ideal S32x1 .f32) (r : Fin 32) :
    k0_pay9 (F := Ideal) x0 ys2 (ix2 r (0 : Fin 1))
      = ys2 (ix2 r (0 : Fin 1)) + ∑ w : Fin 640, k0_pay6 (F := Ideal) x0 (ix2 r w) * k0_pay6 (F := Ideal) x0 (ix2 r w) := by
  unfold k0_pay9
  show (shapeCast S32x1 (addf ys2 (shapeCast S32x1 (multiReduction .add [1] S32 (mulf (k0_pay6 x0) (k0_pay6 x0)) 0x00000000#32
      reduces_S32x640_S32 (.inl rfl) rfl) shapeCasts_S32_S32x1)) shapeCasts_S32x1_S32x1) (ix2 r (0 : Fin 1)) = _
  rw [shapeCast_self]
  refine congrArg (fun s => ys2 (ix2 r (0 : Fin 1)) + s) ?_
  refine (RowOps.colCast_apply _ shapeCasts_S32_S32x1 r).trans ?_
  exact RowOps.rowSum_vector (mulf (k0_pay6 (F := Ideal) x0) (k0_pay6 (F := Ideal) x0)) 0x00000000#32 reduces_S32x640_S32 (.inl rfl) rfl r

/-! The matrix product: both factors carry the contracted feature axis second. -/

theorem lhs_0 (i : S32x128.Idx) (q : dot_S32x640_S128x640_S32x128_1_1_0_0_n_n.contr.Idx) : (dot_S32x640_S128x640_S32x128_1_1_0_0_n_n.lhsIdx i q 0).val = (i 0).val := by
  unfold DotDims.lhsIdx
  rw [dif_neg (show ¬(0 : Fin S32x640.rank) ∈ dot_S32x640_S128x640_S32x128_1_1_0_0_n_n.lhsBatch by decide), dif_pos (show (0 : Fin S32x640.rank) ∈ dot_S32x640_S128x640_S32x128_1_1_0_0_n_n.lhsNonContracting by decide)]
  rfl
theorem lhs_1 (i : S32x128.Idx) (q : dot_S32x640_S128x640_S32x128_1_1_0_0_n_n.contr.Idx) : (dot_S32x640_S128x640_S32x128_1_1_0_0_n_n.lhsIdx i q 1).val = (q ⟨0, by decide⟩).val :=
  dot_S32x640_S128x640_S32x128_1_1_0_0_n_n.lhsIdx_val_of_single rfl i q
theorem rhs_0 (i : S32x128.Idx) (q : dot_S32x640_S128x640_S32x128_1_1_0_0_n_n.contr.Idx) : (dot_S32x640_S128x640_S32x128_1_1_0_0_n_n.rhsIdx i q 0).val = (i 1).val := by
  unfold DotDims.rhsIdx
  rw [dif_neg (show ¬(0 : Fin S128x640.rank) ∈ dot_S32x640_S128x640_S32x128_1_1_0_0_n_n.rhsBatch by decide), dif_pos (show (0 : Fin S128x640.rank) ∈ dot_S32x640_S128x640_S32x128_1_1_0_0_n_n.rhsNonContracting by decide)]
  rfl
theorem rhs_1 (i : S32x128.Idx) (q : dot_S32x640_S128x640_S32x128_1_1_0_0_n_n.contr.Idx) : (dot_S32x640_S128x640_S32x128_1_1_0_0_n_n.rhsIdx i q 1).val = (q ⟨0, by decide⟩).val :=
  dot_S32x640_S128x640_S32x128_1_1_0_0_n_n.rhsIdx_val_of_single rfl i q

/-- The product of a 32 × 640 and a 128 × 640 block into the zero block, at (r, b): the sum over the 640 features. -/
theorem matmul_apply {φ₁ φ₂ : FTy} (l : FVec Ideal S32x640 φ₁) (rr : FVec Ideal S128x640 φ₂) (r : Fin 32) (b : Fin 128) :
    matmul dot_S32x640_S128x640_S32x128_1_1_0_0_n_n none l rr (constant S32x128 .f32 0x00000000#32) (ix2 r b) = ∑ w : Fin 640, l (ix2 r w) * rr (ix2 b w) := by
  refine (Ideal.matmul_constant_zero_apply dot_S32x640_S128x640_S32x128_1_1_0_0_n_n none l rr (ix2 r b)).trans ?_
  rw [← Equiv.sum_comp (contrEquiv1 dot_S32x640_S128x640_S32x128_1_1_0_0_n_n 640 rfl rfl).symm]
  refine Finset.sum_congr rfl fun k _ => ?_
  have hk := contrEquiv1_symm_val dot_S32x640_S128x640_S32x128_1_1_0_0_n_n 640 rfl rfl k
  have el : dot_S32x640_S128x640_S32x128_1_1_0_0_n_n.lhsIdx (ix2 r b) ((contrEquiv1 dot_S32x640_S128x640_S32x128_1_1_0_0_n_n 640 rfl rfl).symm k) = ix2 r k := funext fun a => Fin.ext (by
    match a with
    | ⟨0, _⟩ => exact lhs_0 _ _
    | ⟨1, _⟩ => exact (lhs_1 _ _).trans hk)
  have er : dot_S32x640_S128x640_S32x128_1_1_0_0_n_n.rhsIdx (ix2 r b) ((contrEquiv1 dot_S32x640_S128x640_S32x128_1_1_0_0_n_n 640 rfl rfl).symm k) = ix2 b k := funext fun a => Fin.ext (by
    match a with
    | ⟨0, _⟩ => exact rhs_0 _ _
    | ⟨1, _⟩ => exact (rhs_1 _ _).trans hk)
  rw [el, er]

/-- THE DOT-PRODUCT BLOCK after the step: what it held at (r, b) plus the sum over the tile of prototype r times query b. -/
theorem pay10_apply (x0 : FVec Ideal S32x128x640 .f32) (x1 : FVec Ideal S128x640 .f32) (ys0 : FVec Ideal S32x128 .f32)
    (r : Fin 32) (b : Fin 128) :
    k0_pay10 (F := Ideal) x0 x1 ys0 (ix2 r b)
      = ys0 (ix2 r b) + ∑ w : Fin 640, k0_pay6 (F := Ideal) x0 (ix2 r w) * x1 (ix2 b w) := by
  unfold k0_pay10
  rw [pay7_eq]
  show ys0 (ix2 r b) + matmul dot_S32x640_S128x640_S32x128_1_1_0_0_n_n none (truncf .bf16 (k0_pay6 (F := Ideal) x0) bitsLt_bf16_f32) (truncf .bf16 x1 bitsLt_bf16_f32)
      (constant S32x128 .f32 0x00000000#32) (ix2 r b) = _
  refine congrArg (fun s => ys0 (ix2 r b) + s) ?_
  exact matmul_apply _ _ r b

/-- THE FINAL EXPRESSION at (r, b): zero minus ((row at b plus column at r) minus twice the dot product). -/
theorem pay2_apply (v37 : FVec Ideal S1x128 .f32) (v38 : FVec Ideal S32x1 .f32) (v42 : FVec Ideal S32x128 .f32)
    (r : Fin 32) (b : Fin 128) :
    k0_pay2 (F := Ideal) v37 v38 v42 (ix2 r b)
      = Ideal.ofBits .f32 0x00000000#32
          - ((v37 (ix2 (0 : Fin 1) b) + v38 (ix2 r (0 : Fin 1))) - Ideal.ofBits .f32 0x40000000#32 * v42 (ix2 r b)) := by
  unfold k0_pay2
  show Ideal.ofBits .f32 0x00000000#32
      - ((broadcastTo S32x128 v37 broadcasts_S1x128_S32x128 (ix2 r b) + broadcastTo S32x128 v38 broadcasts_S32x1_S32x128 (ix2 r b))
        - Ideal.ofBits .f32 0x40000000#32 * v42 (ix2 r b)) = _
  rw [broadcastTo_1b_ab_apply, RowOps.colBcast_apply]

end Cert.KernelIdeal.StepValues

end
-- ==== Proof.LibTileSum.lean ====
/-
  A sum over N = T·W consecutive positions, taken tile by tile.

  The positions 0 … N−1 split into T tiles of W consecutive positions each; position w of tile k is W·k + w.
  In any commutative monoid the sum over all positions is the sum over the tiles of each tile's sum. A running
  total that starts from a value z and adds one tile's sum per step therefore ends, after all T steps, at z plus
  the whole sum. Tile numbers are also taken as plain naturals (the position then wraps around past the last
  tile, where it is never used), so that a running total can be stated over an initial segment of the naturals.
-/
import Idealize.ShloMosaic.Lib.ValueIdx

open scoped BigOperators

namespace Idealize.ShloMosaic.TileSum

/-- Position `w` of tile `k` among `N = T·W` positions. -/
def pos {T W N : ℕ} (hN : T * W = N) (k : Fin T) (w : Fin W) : Fin N :=
  ⟨W * k.val + w.val, by
    have hk := k.isLt
    have hw := w.isLt
    calc W * k.val + w.val < W * k.val + W := by omega
      _ = W * (k.val + 1) := by ring
      _ ≤ W * T := Nat.mul_le_mul_left _ hk
      _ = N := by rw [Nat.mul_comm]; exact hN⟩

/-- The sum over all positions is the sum over the tiles of each tile's sum. -/
theorem sum_tiles {M : Type*} [AddCommMonoid M] {T W N : ℕ} (hN : T * W = N) (g : Fin N → M) :
    ∑ f : Fin N, g f = ∑ k : Fin T, ∑ w : Fin W, g (pos hN k w) := by
  subst hN
  rw [← Equiv.sum_comp finProdFinEquiv g, Fintype.sum_prod_type]
  refine Finset.sum_congr rfl fun k _ => Finset.sum_congr rfl fun w _ => congrArg g (Fin.ext ?_)
  show w.val + W * k.val = W * k.val + w.val
  exact Nat.add_comm _ _

/-- Position `w` of the tile numbered `j`, for any natural `j`. -/
def posN {W N : ℕ} (hpos : 0 < N) (j : ℕ) (w : Fin W) : Fin N :=
  ⟨(W * j + w.val) % N, Nat.mod_lt _ hpos⟩

/-- For a tile number below `T` it is that tile's position. -/
theorem posN_eq {T W N : ℕ} (hN : T * W = N) (hpos : 0 < N) (k : Fin T) (w : Fin W) :
    posN hpos k.val w = pos hN k w :=
  Fin.ext (Nat.mod_eq_of_lt (pos hN k w).isLt)

/-- Its value, for a tile number below `T`. -/
theorem posN_val {T W N : ℕ} (hN : T * W = N) (hpos : 0 < N) (j : ℕ) (hj : j < T) (w : Fin W) :
    (posN hpos j w : Fin N).val = W * j + w.val :=
  congrArg Fin.val (posN_eq hN hpos ⟨j, hj⟩ w)

/-- The tiles numbered below `T`, summed, give the whole sum. -/
theorem sum_range_tiles {M : Type*} [AddCommMonoid M] {T W N : ℕ} (hN : T * W = N) (hpos : 0 < N) (g : Fin N → M) :
    ∑ j ∈ Finset.range T, ∑ w : Fin W, g (posN hpos j w) = ∑ f : Fin N, g f := by
  rw [Finset.sum_range, sum_tiles hN g]
  exact Finset.sum_congr rfl fun k _ => Finset.sum_congr rfl fun w _ => congrArg g (posN_eq hN hpos k w)

/-- A running total: what is there after the steps below `n`, plus step `n`'s addend, is what is there after the
    steps below `n + 1`. -/
theorem run_succ {M : Type*} [AddCommMonoid M] (z : M) (a : ℕ → M) (n : ℕ) :
    (z + ∑ j ∈ Finset.range n, a j) + a n = z + ∑ j ∈ Finset.range (n + 1), a j := by
  rw [Finset.sum_range_succ, add_assoc]

/-- A running total after its first step. -/
theorem run_one {M : Type*} [AddCommMonoid M] (z : M) (a : ℕ → M) :
    z + a 0 = z + ∑ j ∈ Finset.range 1, a j := by
  rw [Finset.sum_range_one]

end Idealize.ShloMosaic.TileSum
-- ==== Proof.Spec.lean ====
/-
  Negative squared distances between queries and class prototypes, as one function of the two flattened
  argument arrays.

  The queries are a 128 × 16000 array Q (one row of 16000 features per query), the support set a
  64 × 128 × 16000 array S (64 classes, 128 shots each). Class c's prototype is the mean of its shots,
  P(c, f) = (Σ_s S(c, s, f)) / 128, and the result at (b, c) is

      −( (Σ_f Q(b,f)² + Σ_f P(c,f)²) − 2 · Σ_f Q(b,f) · P(c,f) ),

  every sum that a host reduction takes starting from the f32 zero. `negDist` spells this as the reference
  computes it. `negDistK` spells it as the kernel does: the 16000 features go by in 25 tiles of 640, each
  accumulator starts from the f32 zero and adds one tile's partial sum per step, the dot product multiplies
  prototype by query, and the sign is changed by subtracting from zero. The two are equal on the extended
  reals with no side condition: the f32 zero is the additive unit, a sum over 25·640 positions is the sum
  of its 25 tile sums, multiplication commutes, and 0 − x = −x.
-/
import Idealize.ShloMosaic.PureOps.Ideal
import Idealize.ShloMosaic.PureOps.Ideal.Laws
import Idealize.ShloMosaic.Lib.ValueIdx
import proofs.«120106_j4698694222630_2_alg».proof.Proof.LibTileSum

noncomputable section

open scoped BigOperators

namespace Cert.Proto

open Idealize.ShloMosaic Idealize.ShloMosaic.ValueIdx Idealize.ShloMosaic.TileSum

/-- Feature number of position `w` in feature tile `j` (25 tiles of 640 features). -/
abbrev feat (j : ℕ) (w : Fin 640) : Fin 16000 := posN (W := 640) (N := 16000) (by decide) j w

/-- Class number of class `r` in class half `h` (2 halves of 32 classes). -/
abbrev cls (h : ℕ) (r : Fin 32) : Fin 64 := posN (W := 32) (N := 64) (by decide) h r

/-- The f32 zero every accumulator and host sum starts from. -/
def zero : EReal := Ideal.ofBits .f32 0x00000000#32
/-- The factor 2 of the cross term. -/
def two : EReal := Ideal.ofBits .f32 0x40000000#32
/-- The number of shots, 128, the mean divides by. -/
def shots : EReal := Ideal.ofBits .f32 0x43000000#32

theorem zero_eq : zero = 0 := Ideal.ofBits_zero_f32

variable (Q : (⟨2, ![128, 16000]⟩ : Shape).Idx → EReal) (S : (⟨3, ![64, 128, 16000]⟩ : Shape).Idx → EReal)

/-- Class `c`'s prototype at feature `f`: the mean over the 128 shots, the sum started from the f32 zero. -/
def proto (c : Fin 64) (f : Fin 16000) : EReal := Ideal.div (zero + ∑ s : Fin 128, S (ix3 c s f)) shots

/-- The same mean with the sum started from nothing. -/
def protoK (c : Fin 64) (f : Fin 16000) : EReal := Ideal.div (∑ s : Fin 128, S (ix3 c s f)) shots

theorem protoK_eq (c : Fin 64) (f : Fin 16000) : protoK S c f = proto S c f := by
  unfold protoK proto
  rw [zero_eq, zero_add]

/-- THE RESULT at query `b` and class `c`, as the reference spells it. -/
def negDist (b : Fin 128) (c : Fin 64) : EReal :=
  -(((zero + ∑ f : Fin 16000, Q (ix2 b f) * Q (ix2 b f)) + (zero + ∑ f : Fin 16000, proto S c f * proto S c f))
      - two * ∑ f : Fin 16000, Q (ix2 b f) * proto S c f)

/-- Query `b`'s squared norm over feature tile `j`. -/
def qsqTile (j : ℕ) (b : Fin 128) : EReal := ∑ w : Fin 640, Q (ix2 b (feat j w)) * Q (ix2 b (feat j w))
/-- Prototype `c`'s squared norm over feature tile `j`. -/
def psqTile (j : ℕ) (c : Fin 64) : EReal := ∑ w : Fin 640, protoK S c (feat j w) * protoK S c (feat j w)
/-- Their dot product over feature tile `j`. -/
def dotTile (j : ℕ) (c : Fin 64) (b : Fin 128) : EReal := ∑ w : Fin 640, protoK S c (feat j w) * Q (ix2 b (feat j w))

/-- The three accumulators after the feature tiles below `n` have gone by. -/
def qsqRun (n : ℕ) (b : Fin 128) : EReal := zero + ∑ j ∈ Finset.range n, qsqTile Q j b
def psqRun (n : ℕ) (c : Fin 64) : EReal := zero + ∑ j ∈ Finset.range n, psqTile S j c
def dotRun (n : ℕ) (c : Fin 64) (b : Fin 128) : EReal := zero + ∑ j ∈ Finset.range n, dotTile Q S j c b

/-- THE RESULT at class `c` and query `b`, as the kernel spells it. -/
def negDistK (c : Fin 64) (b : Fin 128) : EReal :=
  zero - ((qsqRun Q 25 b + psqRun S 25 c) - two * dotRun Q S 25 c b)

theorem qsq_total (b : Fin 128) :
    ∑ j ∈ Finset.range 25, qsqTile Q j b = ∑ f : Fin 16000, Q (ix2 b f) * Q (ix2 b f) :=
  sum_range_tiles (T := 25) (W := 640) (N := 16000) rfl (by decide) (fun f => Q (ix2 b f) * Q (ix2 b f))

theorem psq_total (c : Fin 64) :
    ∑ j ∈ Finset.range 25, psqTile S j c = ∑ f : Fin 16000, proto S c f * proto S c f :=
  (sum_range_tiles (T := 25) (W := 640) (N := 16000) rfl (by decide) (fun f => protoK S c f * protoK S c f)).trans
    (Finset.sum_congr rfl fun f _ => by rw [protoK_eq])

theorem dot_total (c : Fin 64) (b : Fin 128) :
    ∑ j ∈ Finset.range 25, dotTile Q S j c b = ∑ f : Fin 16000, Q (ix2 b f) * proto S c f :=
  (sum_range_tiles (T := 25) (W := 640) (N := 16000) rfl (by decide) (fun f => protoK S c f * Q (ix2 b f))).trans
    (Finset.sum_congr rfl fun f _ => by rw [protoK_eq, mul_comm])

/-- The kernel's spelling and the reference's are one extended real. -/
theorem negDistK_eq (c : Fin 64) (b : Fin 128) : negDistK Q S c b = negDist Q S b c := by
  unfold negDistK negDist qsqRun psqRun dotRun
  rw [qsq_total, psq_total, dot_total, zero_eq]
  simp only [zero_add, zero_sub]

end Cert.Proto

end
-- ==== Proof.StepTiles.lean ====
/-
  One grid step in the specification's terms.

  When a step's support block x0 is the classes of half h, all shots, feature tile k of the whole support array S, and
  its query block x1 is feature tile k of the whole query array Q, then its prototype tile is the whole-array
  prototype at those classes and features, and what it adds to the three accumulators are the specification's tile
  quantities: the query norms, the prototype norms and the dot products over feature tile k.
-/
import proofs.«120106_j4698694222630_2_alg».proof.Proof.StepValues
import proofs.«120106_j4698694222630_2_alg».proof.Proof.Spec

noncomputable section

open scoped BigOperators
open Idealize.ShloMosaic Idealize.ShloMosaic.TcCoe Idealize.SL.Sem Idealize.ShloMosaic.ValueIdx

namespace Cert.KernelIdeal.StepTiles

open Cert.KernelIdeal Cert.KernelIdeal.Gen Cert.KernelIdeal.StepValues Cert.Proto

variable (Q : (⟨2, ![128, 16000]⟩ : Shape).Idx → EReal) (S : (⟨3, ![64, 128, 16000]⟩ : Shape).Idx → EReal) (h k : ℕ)
  (x0 : FVec Ideal S32x128x640 .f32) (x1 : FVec Ideal S128x640 .f32)

/-- The step's prototype tile is the whole-array prototype of class r of half h at feature w of tile k. -/
theorem proto_tile (hx0 : ∀ (r : Fin 32) (s : Fin 128) (w : Fin 640), x0 (ix3 r s w) = S (ix3 (cls h r) s (feat k w)))
    (r : Fin 32) (w : Fin 640) : k0_pay6 (F := Ideal) x0 (ix2 r w) = protoK S (cls h r) (feat k w) := by
  rw [pay6_apply]
  unfold protoK shots
  exact congrArg (fun s => Ideal.div s (Ideal.ofBits .f32 0x43000000#32)) (Finset.sum_congr rfl fun s _ => hx0 r s w)

/-- The query-norm row gains query b's squared norm over feature tile k. -/
theorem step_qsq (hx1 : ∀ (b : Fin 128) (w : Fin 640), x1 (ix2 b w) = Q (ix2 b (feat k w)))
    (ys1 : FVec Ideal S1x128 .f32) (u : Fin 1) (b : Fin 128) :
    k0_pay8 (F := Ideal) x1 ys1 (ix2 u b) = ys1 (ix2 u b) + qsqTile Q k b := by
  rw [pay8_apply]
  unfold qsqTile
  exact congrArg (fun s => ys1 (ix2 u b) + s) (Finset.sum_congr rfl fun w _ => by rw [hx1])

/-- The prototype-norm column gains prototype r's squared norm over feature tile k. -/
theorem step_psq (hx0 : ∀ (r : Fin 32) (s : Fin 128) (w : Fin 640), x0 (ix3 r s w) = S (ix3 (cls h r) s (feat k w)))
    (ys2 : FVec Ideal S32x1 .f32) (r : Fin 32) :
    k0_pay9 (F := Ideal) x0 ys2 (ix2 r (0 : Fin 1)) = ys2 (ix2 r (0 : Fin 1)) + psqTile S k (cls h r) := by
  rw [pay9_apply]
  unfold psqTile
  exact congrArg (fun s => ys2 (ix2 r (0 : Fin 1)) + s)
    (Finset.sum_congr rfl fun w _ => by rw [proto_tile S h k x0 hx0 r w])

/-- The dot-product block gains, at (r, b), the dot product of prototype r and query b over feature tile k. -/
theorem step_dot (hx0 : ∀ (r : Fin 32) (s : Fin 128) (w : Fin 640), x0 (ix3 r s w) = S (ix3 (cls h r) s (feat k w)))
    (hx1 : ∀ (b : Fin 128) (w : Fin 640), x1 (ix2 b w) = Q (ix2 b (feat k w)))
    (ys0 : FVec Ideal S32x128 .f32) (r : Fin 32) (b : Fin 128) :
    k0_pay1 (k0_pay10 (F := Ideal) x0 x1 ys0) (ix2 r b) = ys0 (ix2 r b) + dotTile Q S k (cls h r) b := by
  rw [pay1_eq, pay10_apply]
  unfold dotTile
  exact congrArg (fun s => ys0 (ix2 r b) + s)
    (Finset.sum_congr rfl fun w _ => by rw [proto_tile S h k x0 hx0 r w, hx1])

end Cert.KernelIdeal.StepTiles

end
-- ==== Proof.Accum.lean ====
/-
  The three accumulators after every grid point, and the output block at a last feature tile.

  The grid has 50 points: point n works on class half n / 25 and feature tile n % 25. Its support block is classes
  32·(n/25) … 32·(n/25)+31, all shots, features 640·(n%25) … 640·(n%25)+639 of the flattened support array, and its query
  block is the same features of the flattened query array. By induction on the point: after point n the dot-product
  accumulator, the query-norm accumulator and the prototype-norm accumulator hold the specification's running totals
  over the feature tiles 0 … n % 25 of class half n / 25 — a first tile starts the totals afresh, any other tile adds its
  contribution to the totals of the point before, which belongs to the same class half. At a last feature tile
  (n % 25 = 24) the totals are complete and the output block is the kernel's spelling of the result.
-/
import proofs.«120106_j4698694222630_2_alg».proof.Proof.Gen.KernelIdeal.Frame
import proofs.«120106_j4698694222630_2_alg».proof.Proof.Steps
import proofs.«120106_j4698694222630_2_alg».proof.Proof.StepTiles
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.StepValues Cert.Proto Idealize.ShloMosaic.TileSum

variable (m : (ℓ : Loc nD τ sig) → Buf (Elt Ideal) ℓ) (c : Dev nD)

theorem lt50 (t : Fin cfg0.N) : t.val < 50 := lt_of_lt_of_eq t.isLt N_0

theorem prev_lt (t : Fin cfg0.N) : t.val - 1 < cfg0.N := Nat.lt_of_le_of_lt (Nat.sub_le _ _) t.isLt

/-- The printed index maps, decided once over the grid: the support window moves with the class half on its first
    axis and with the feature tile on its last, the query window with the feature tile on its last axis, the
    output window with the class half on its first. -/
theorem idx_facts : ∀ t : Fin cfg0.N,
    win0_0.index t (0 : Fin 3) = t.val / 25 ∧ win0_0.index t (1 : Fin 3) = 0 ∧ win0_0.index t (2 : Fin 3) = t.val % 25
    ∧ win0_1.index t (0 : Fin 2) = 0 ∧ win0_1.index t (1 : Fin 2) = t.val % 25
    ∧ win0_2.index t (0 : Fin 2) = t.val / 25 ∧ win0_2.index t (1 : Fin 2) = 0 :=
  (by decide +kernel : ∀ t : Fin grid0.N, _)

/-- The query block at point t is feature tile t % 25 of the flattened queries. -/
theorem blk1_apply (t : Fin cfg0.N) (b : Fin 128) (w : Fin 640) :
    iblk m c 1 t (ix2 b w) = V m c main_v0 (ix2 b (feat (t.val % 25) w)) := by
  obtain ⟨-, -, -, e0, e1, -, -⟩ := idx_facts t
  unfold iblk
  rw [View.read_apply]
  show V m c main_v0 (((cfg0.win 1).blk t).view.emb (ix2 b w)) = V m c main_v0 (ix2 b (feat (t.val % 25) w))
  refine congrArg (V m c main_v0) (funext fun a => Fin.ext ?_)
  match a with
  | ⟨0, _⟩ => show win0_1.index t (0 : Fin 2) * 128 + 1 * b.val = b.val; rw [e0]; omega
  | ⟨1, _⟩ =>
    show win0_1.index t (1 : Fin 2) * 640 + 1 * w.val = (feat (t.val % 25) w).val
    rw [e1, posN_val (T := 25) rfl (by decide) (t.val % 25) (Nat.mod_lt _ (by decide)) w]; omega

/-- The support block at point t is class half t / 25, all shots, feature tile t % 25 of the flattened support set. -/
theorem blk0_apply (t : Fin cfg0.N) (r : Fin 32) (s : Fin 128) (w : Fin 640) :
    iblk m c 0 t (ix3 r s w) = V m c main_v1 (ix3 (cls (t.val / 25) r) s (feat (t.val % 25) w)) := by
  obtain ⟨e0, e1, e2, -, -, -, -⟩ := idx_facts t
  have ht := lt50 t
  unfold iblk
  rw [View.read_apply]
  show V m c main_v1 (((cfg0.win 0).blk t).view.emb (ix3 r s w))
    = V m c main_v1 (ix3 (cls (t.val / 25) r) s (feat (t.val % 25) w))
  refine congrArg (V m c main_v1) (funext fun a => Fin.ext ?_)
  match a with
  | ⟨0, _⟩ =>
    show win0_0.index t (0 : Fin 3) * 32 + 1 * r.val = (cls (t.val / 25) r).val
    rw [e0, posN_val (T := 2) rfl (by decide) (t.val / 25) (by omega) r]; omega
  | ⟨1, _⟩ => show win0_0.index t (1 : Fin 3) * 128 + 1 * s.val = s.val; rw [e1]; omega
  | ⟨2, _⟩ =>
    show win0_0.index t (2 : Fin 3) * 640 + 1 * w.val = (feat (t.val % 25) w).val
    rw [e2, posN_val (T := 25) rfl (by decide) (t.val % 25) (Nat.mod_lt _ (by decide)) w]; omega

/-- What the three accumulators hold after point n: the running totals over the feature tiles 0 … n % 25 of class
    half n / 25. -/
structure Totals (n : ℕ) (hn : n < cfg0.N) : Prop where
  dot : ∀ (r : Fin 32) (b : Fin 128),
    (outsAt0 m c n hn).2.1 (ix2 r b) = dotRun (V m c main_v0) (V m c main_v1) (n % 25 + 1) (cls (n / 25) r) b
  qsq : ∀ (u : Fin 1) (b : Fin 128), (outsAt0 m c n hn).2.2.1 (ix2 u b) = qsqRun (V m c main_v0) (n % 25 + 1) b
  psq : ∀ (r : Fin 32),
    (outsAt0 m c n hn).2.2.2 (ix2 r (0 : Fin 1)) = psqRun (V m c main_v1) (n % 25 + 1) (cls (n / 25) r)

set_option maxHeartbeats 1000000 in
/-- A first feature tile starts the totals afresh. -/
theorem totals_first (t : Fin cfg0.N) (h0 : t.val % 25 = 0) : Totals m c t.val t.isLt := by
  have h1 : ¬t.val % 25 = 24 := by omega
  have e := outsAt0_A m c t h0 h1
  have e0 := (congrArg (fun p => p.2.1) e).trans (Steps.first_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))
  have e1 := (congrArg (fun p => p.2.2.1) e).trans (Steps.first_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))
  have e2 := (congrArg (fun p => p.2.2.2) e).trans (Steps.first_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))
  refine ⟨fun r b => ?_, fun u b => ?_, fun r => ?_⟩
  · refine (congrFun e0 (ix2 r b)).trans ?_
    refine (StepTiles.step_dot (V m c main_v0) (V m c main_v1) (t.val / 25) (t.val % 25) (iblk m c 0 t) (iblk m c 1 t) (blk0_apply m c t) (blk1_apply m c t) k0_pay3 r b).trans ?_
    rw [h0]
    exact run_one zero (fun j => dotTile (V m c main_v0) (V m c main_v1) j (cls (t.val / 25) r) b)
  · refine (congrFun e1 (ix2 u b)).trans ?_
    refine (StepTiles.step_qsq (V m c main_v0) (t.val % 25) (iblk m c 1 t) (blk1_apply m c t) k0_pay4 u b).trans ?_
    rw [h0]
    exact run_one zero (fun j => qsqTile (V m c main_v0) j b)
  · refine (congrFun e2 (ix2 r (0 : Fin 1))).trans ?_
    refine (StepTiles.step_psq (V m c main_v1) (t.val / 25) (t.val % 25) (iblk m c 0 t) (blk0_apply m c t) k0_pay5 r).trans ?_
    rw [h0]
    exact run_one zero (fun j => psqTile (V m c main_v1) j (cls (t.val / 25) r))

set_option maxHeartbeats 1000000 in
/-- What the last feature tile leaves in the three accumulators: one step over what the point before left. -/
theorem scratch_last (t : Fin cfg0.N) (h0 : ¬t.val % 25 = 0) (h1 : t.val % 25 = 24) :
    (outsAt0 m c t.val t.isLt).2.1 = k0_pay1 (k0_pay10 (iblk m c 0 t) (iblk m c 1 t) (outsAt0 m c (t.val - 1) (prev_lt t)).2.1)
    ∧ (outsAt0 m c t.val t.isLt).2.2.1 = k0_pay8 (iblk m c 1 t) (outsAt0 m c (t.val - 1) (prev_lt t)).2.2.1
    ∧ (outsAt0 m c t.val t.isLt).2.2.2 = k0_pay9 (iblk m c 0 t) (outsAt0 m c (t.val - 1) (prev_lt t)).2.2.2 := by
  have e := outsAt0_C m c t h0 h1
  exact ⟨(congrArg (fun p => p.2.1) e).trans (Steps.last_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (prev_lt t)).2.1 (outsAt0 m c (t.val - 1) (prev_lt t)).2.2.1 (outsAt0 m c (t.val - 1) (prev_lt t)).2.2.2),
    (congrArg (fun p => p.2.2.1) e).trans (Steps.last_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (prev_lt t)).2.1 (outsAt0 m c (t.val - 1) (prev_lt t)).2.2.1 (outsAt0 m c (t.val - 1) (prev_lt t)).2.2.2),
    (congrArg (fun p => p.2.2.2) e).trans (Steps.last_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (prev_lt t)).2.1 (outsAt0 m c (t.val - 1) (prev_lt t)).2.2.1 (outsAt0 m c (t.val - 1) (prev_lt t)).2.2.2)⟩

set_option maxHeartbeats 1000000 in
/-- What a feature tile that is neither first nor last leaves in them: the same step. -/
theorem scratch_middle (t : Fin cfg0.N) (h0 : ¬t.val % 25 = 0) (h1 : ¬t.val % 25 = 24) :
    (outsAt0 m c t.val t.isLt).2.1 = k0_pay1 (k0_pay10 (iblk m c 0 t) (iblk m c 1 t) (outsAt0 m c (t.val - 1) (prev_lt t)).2.1)
    ∧ (outsAt0 m c t.val t.isLt).2.2.1 = k0_pay8 (iblk m c 1 t) (outsAt0 m c (t.val - 1) (prev_lt t)).2.2.1
    ∧ (outsAt0 m c t.val t.isLt).2.2.2 = k0_pay9 (iblk m c 0 t) (outsAt0 m c (t.val - 1) (prev_lt t)).2.2.2 := by
  have e := outsAt0_B m c t h0 h1
  exact ⟨(congrArg (fun p => p.2.1) e).trans (Steps.middle_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (prev_lt t)).2.1 (outsAt0 m c (t.val - 1) (prev_lt t)).2.2.1 (outsAt0 m c (t.val - 1) (prev_lt t)).2.2.2),
    (congrArg (fun p => p.2.2.1) e).trans (Steps.middle_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (prev_lt t)).2.1 (outsAt0 m c (t.val - 1) (prev_lt t)).2.2.1 (outsAt0 m c (t.val - 1) (prev_lt t)).2.2.2),
    (congrArg (fun p => p.2.2.2) e).trans (Steps.middle_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (prev_lt t)).2.1 (outsAt0 m c (t.val - 1) (prev_lt t)).2.2.1 (outsAt0 m c (t.val - 1) (prev_lt t)).2.2.2)⟩

/-- What a later feature tile leaves in the three accumulators: one step over what the point before left. -/
theorem scratch_next (t : Fin cfg0.N) (h0 : ¬t.val % 25 = 0) :
    (outsAt0 m c t.val t.isLt).2.1 = k0_pay1 (k0_pay10 (iblk m c 0 t) (iblk m c 1 t) (outsAt0 m c (t.val - 1) (prev_lt t)).2.1)
    ∧ (outsAt0 m c t.val t.isLt).2.2.1 = k0_pay8 (iblk m c 1 t) (outsAt0 m c (t.val - 1) (prev_lt t)).2.2.1
    ∧ (outsAt0 m c t.val t.isLt).2.2.2 = k0_pay9 (iblk m c 0 t) (outsAt0 m c (t.val - 1) (prev_lt t)).2.2.2 := by
  by_cases h1 : t.val % 25 = 24
  · exact scratch_last m c t h0 h1
  · exact scratch_middle m c t h0 h1

/-- A later feature tile adds its contribution to the totals of the point before. -/
theorem totals_next (t : Fin cfg0.N) (h0 : ¬t.val % 25 = 0) (ih : Totals m c (t.val - 1) (prev_lt t)) :
    Totals m c t.val t.isLt := by
  obtain ⟨e0, e1, e2⟩ := scratch_next m c t h0
  have k1 : (t.val - 1) % 25 + 1 = t.val % 25 := by omega
  have k2 : (t.val - 1) / 25 = t.val / 25 := by omega
  refine ⟨fun r b => ?_, fun u b => ?_, fun r => ?_⟩
  · refine (congrFun e0 (ix2 r b)).trans ?_
    refine (StepTiles.step_dot (V m c main_v0) (V m c main_v1) (t.val / 25) (t.val % 25) (iblk m c 0 t) (iblk m c 1 t) (blk0_apply m c t) (blk1_apply m c t) (outsAt0 m c (t.val - 1) (prev_lt t)).2.1 r b).trans ?_
    rw [ih.dot r b, k1, k2]
    exact run_succ zero (fun j => dotTile (V m c main_v0) (V m c main_v1) j (cls (t.val / 25) r) b) (t.val % 25)
  · refine (congrFun e1 (ix2 u b)).trans ?_
    refine (StepTiles.step_qsq (V m c main_v0) (t.val % 25) (iblk m c 1 t) (blk1_apply m c t) (outsAt0 m c (t.val - 1) (prev_lt t)).2.2.1 u b).trans ?_
    rw [ih.qsq u b, k1]
    exact run_succ zero (fun j => qsqTile (V m c main_v0) j b) (t.val % 25)
  · refine (congrFun e2 (ix2 r (0 : Fin 1))).trans ?_
    refine (StepTiles.step_psq (V m c main_v1) (t.val / 25) (t.val % 25) (iblk m c 0 t) (blk0_apply m c t) (outsAt0 m c (t.val - 1) (prev_lt t)).2.2.2 r).trans ?_
    rw [ih.psq r, k1, k2]
    exact run_succ zero (fun j => psqTile (V m c main_v1) j (cls (t.val / 25) r)) (t.val % 25)

/-- THE ACCUMULATION, by induction on the point. -/
theorem totals : ∀ (n : ℕ) (hn : n < cfg0.N), Totals m c n hn
  | 0, hn => totals_first m c ⟨0, hn⟩ rfl
  | n + 1, hn => by
    by_cases h0 : (n + 1) % 25 = 0
    · exact totals_first m c ⟨n + 1, hn⟩ h0
    · exact totals_next m c ⟨n + 1, hn⟩ h0 (totals n (Nat.lt_of_succ_lt hn))

set_option maxHeartbeats 1000000 in
/-- THE OUTPUT BLOCK at a last feature tile: the kernel's spelling of the result for the class half's 32 classes. -/
theorem out_last (t : Fin cfg0.N) (h1 : t.val % 25 = 24) (r : Fin 32) (b : Fin 128) :
    (outsAt0 m c t.val t.isLt).1 (ix2 r b) = negDistK (V m c main_v0) (V m c main_v1) (cls (t.val / 25) r) b := by
  have h0 : ¬t.val % 25 = 0 := by omega
  obtain ⟨e0, e1, e2⟩ := scratch_next m c t h0
  have T := totals m c t.val t.isLt
  have e := outsAt0_C m c t h0 h1
  have eo := (congrArg (fun p => p.1) e).trans (Steps.last_out (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (prev_lt t)).2.1 (outsAt0 m c (t.val - 1) (prev_lt t)).2.2.1 (outsAt0 m c (t.val - 1) (prev_lt t)).2.2.2)
  rw [← e0, ← e1, ← e2] at eo
  refine (congrFun eo (ix2 r b)).trans ?_
  refine (pay2_apply (outsAt0 m c t.val t.isLt).2.2.1 (outsAt0 m c t.val t.isLt).2.2.2 (outsAt0 m c t.val t.isLt).2.1 r b).trans ?_
  rw [T.qsq (0 : Fin 1) b, T.psq r, T.dot r b, h1]
  rfl

end Cert.KernelIdeal.Accum

end
-- ==== Proof.KernelResult.lean ====
/-
  The kernel's result array.

  The output window holds 32 classes × 128 queries; it is written back once per class half, after the last feature
  tile, to rows 32·h … 32·h+31 of a 64 × 128 array. The two write-backs cover that array, so it ends holding, at
  (class, query), the kernel's spelling of the result. The host then transposes it: the program's result at
  (query, class) is that value. The two flattened arrays the region reads are the host's reshapes of the arguments.
-/
import proofs.«120106_j4698694222630_2_alg».proof.Proof.Accum
import Idealize.ShloMosaic.Lib.Pipeline.Value
import Idealize.ShloMosaic.Lib.ValueLayout
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum Cert.Proto Idealize.ShloMosaic.TileSum

variable (m : (ℓ : Loc nD τ sig) → Buf (Elt Ideal) ℓ) (ρ : Dev nD → PrngReg) (c : Dev nD)

/-- What the 64 × 128 array ends holding: at (class, query), the kernel's spelling of the result. -/
def outT : S64x128.Idx → EReal :=
  fun i => negDistK (V m c main_v0) (V m c main_v1) ⟨(i 0).val, (i 0).isLt⟩ ⟨(i 1).val, (i 1).isLt⟩

/-- WHAT A LAST FEATURE TILE WRITES BACK is its class half's 32 rows of that array. -/
theorem flushed_eq (t : Fin cfg0.N) (hf : (cfg0.win 2).flush t = true) :
    (dats m 0 c).flushed 2 t = ((cfg0.win 2).blk t).view.read (Elt Ideal) (outT m c) := by
  have h1 : t.val % 25 = 24 := (flush0_2 t).mp hf
  obtain ⟨-, -, -, -, -, e0, e1⟩ := idx_facts t
  have ht := lt50 t
  show (cfg0.win 2).cut (grid0.coords t) ((dats m 0 c).after 2 t) = _
  rw [after0_2]
  funext y
  obtain ⟨r, b, rfl⟩ : ∃ (r : Fin 32) (b : Fin 128), y = ix2 r b := ⟨y 0, y 1, eq_ix2 y⟩
  show (outsAt0 m c t.val t.isLt).1 (ix2 r b) = outT m c (((cfg0.win 2).blk t).view.emb (ix2 r b))
  rw [out_last m c t h1 r b]
  unfold outT
  refine congrArg₂ (negDistK (V m c main_v0) (V m c main_v1)) (Fin.ext ?_) (Fin.ext ?_)
  · show (cls (t.val / 25) r).val = win0_2.index t (0 : Fin 2) * 32 + 1 * r.val
    rw [e0, posN_val (T := 2) rfl (by decide) (t.val / 25) (by omega) r]; omega
  · show b.val = win0_2.index t (1 : Fin 2) * 128 + 1 * b.val
    rw [e1]; omega

/-- An index of the array is in point t's block iff each coordinate is in the block's range on its axis. -/
theorem mem_blk (t : Fin cfg0.N) (i : S64x128.Idx) :
    i ∈ ((cfg0.win 2).blk t).view.set ↔ ∀ a : Fin 2, win0_2.index t a * S32x128.size a ≤ (i a).val
      ∧ (i a).val < win0_2.index t a * S32x128.size a + S32x128.size a := by
  show i ∈ ((View.whole main_v2).slice (win0_2.rect t)).set ↔ _
  rw [View.set_slice_whole, Rect.mem_set_unit]
  exact Iff.rfl

/-- Every row of the array is written back by the last feature tile of its class half. -/
theorem cover (i : S64x128.Idx) :
    ∃ t : Fin cfg0.N, (cfg0.win 2).flush t = true ∧ i ∈ ((cfg0.win 2).blk t).view.set := by
  have hi0 : (i 0).val < 64 := (i 0).isLt
  have hi1 : (i 1).val < 128 := (i 1).isLt
  obtain ⟨t, ht⟩ : ∃ t : Fin cfg0.N, t.val = 25 * ((i 0).val / 32) + 24 :=
    ⟨⟨25 * ((i 0).val / 32) + 24, lt_of_lt_of_eq (by omega : 25 * ((i 0).val / 32) + 24 < 50) N_0.symm⟩, rfl⟩
  obtain ⟨-, -, -, -, -, e0, e1⟩ := idx_facts t
  refine ⟨t, (flush0_2 t).mpr (by omega), ?_⟩
  rw [mem_blk]
  intro a
  match a with
  | ⟨0, _⟩ =>
    show win0_2.index t (0 : Fin 2) * 32 ≤ (i 0).val ∧ (i 0).val < win0_2.index t (0 : Fin 2) * 32 + 32
    rw [e0]; omega
  | ⟨1, _⟩ =>
    show win0_2.index t (1 : Fin 2) * 128 ≤ (i 1).val ∧ (i 1).val < win0_2.index t (1 : Fin 2) * 128 + 128
    rw [e1]; omega

/-- THE 64 × 128 ARRAY after the run. -/
theorem final : (dats m 0 c).arrAt 2 cfg0.N = outT m c :=
  (dats m 0 c).arrAt_eq_of_cover 2 (outT m c) (fun t hf => flushed_eq m c t hf) (cover)

/-- THE PROGRAM'S RESULT: the transpose. -/
def res : S128x64.Idx → EReal := transpose S128x64 [1, 0] (outT m c) transposes_S64x128_S128x64_1_0

theorem res_apply (b : Fin 128) (cl : Fin 64) : res m c (ix2 b cl) = negDistK (V m c main_v0) (V m c main_v1) cl b :=
  transpose_ix2_apply (outT m c) transposes_S64x128_S128x64_1_0 b cl

/-- The host line after the region leaves the transpose of the array in the result buffer. -/
theorem tail_eq : Pipeline.afterTail₀ cfgs (dats m) 0 (V0 m) [hostOps1] c main_v3 = res m c := by
  unfold Pipeline.afterTail₀
  show StableHlo.after hostOps1 _ (Proc.devRef .tc main_v3) = _
  after_results
  unfold res
  refine congrArg (fun a => transpose S128x64 [1, 0] a transposes_S64x128_S128x64_1_0) ?_
  exact (Pipeline.withArrays_arr spec0 launch0.win.arr_inj c _ _ 2).trans (final m c)

/-- The flattened queries the region reads are the host's reshape of the first argument. -/
theorem V_v0 : (V m c main_v0 : S128x16000.Idx → EReal)
    = shapeCast S128x16000 (m ((c : Thread nD τ).loc main_arg0)) shapeCasts_S128x640x5x5_S128x16000 := by
  show StableHlo.after hostOps0 (fun b => m (c, b)) (Proc.devRef .tc main_v0) = _
  after_results
  rfl

/-- The flattened support set is the host's reshape of the second argument. -/
theorem V_v1 : (V m c main_v1 : S64x128x16000.Idx → EReal)
    = shapeCast S64x128x16000 (m ((c : Thread nD τ).loc main_arg1)) shapeCasts_S64x128x640x5x5_S64x128x16000 := by
  show StableHlo.after hostOps0 (fun b => m (c, b)) (Proc.devRef .tc main_v1) = _
  after_results
  rfl

/-- THE KERNEL'S RUN, read: every weakly fair execution ends with the result buffer at the transposed array and the
    two arguments unchanged. -/
theorem run : θ_run defs (onTc (τ := τ) (main (F := Ideal))) ⟨m, fun _ => 0, ρ⟩ fun r => ∀ c : Dev nD,
      r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefResult.lean ====
/-
  The reference's result, entry by entry, is the specification.

  The reference flattens both arguments, takes the shot mean of the support set, the squared norms of the queries and
  of the prototypes as host sums from the f32 zero, their dot products as one matrix product contracting the feature
  axis, and combines them; read at (query b, class c) through the generated one-operation-at-a-time lemmas, the
  result is the specification's expression of the two flattened arrays.
-/
import proofs.«120106_j4698694222630_2_alg».proof.Proof.Gen.ReferenceIdeal.Read
import proofs.«120106_j4698694222630_2_alg».proof.Proof.Spec

noncomputable section

open scoped BigOperators
open Idealize.ShloMosaic Idealize.ShloMosaic.TcCoe Idealize.SL.Sem Idealize.ShloMosaic.ValueIdx

namespace Cert.ReferenceIdeal.RefResult

open Cert.ReferenceIdeal Cert.ReferenceIdeal.Gen Cert.ReferenceIdeal.Read Cert.Proto

variable (x0 : (⟨S128x640x5x5, .f32⟩ : BufTy).Contents (Elt Ideal)) (x1 : (⟨S64x128x640x5x5, .f32⟩ : BufTy).Contents (Elt Ideal))

/-- The reference's prototypes are the specification's: the shot mean, the host sum started from the f32 zero. -/
theorem proto_eq (cl : Fin 64) (f : Fin 16000) :
    val_main_v4 (F := Ideal) x1 (ix2 cl f) = proto (val_main_v0 (F := Ideal) x1) cl f := by
  have e : ∀ s : Fin 128, idx_main_v2 (ix2 cl f) s = ix3 cl s f := fun s => funext fun a => Fin.ext (by
    match a with | ⟨0, _⟩ => rfl | ⟨1, _⟩ => rfl | ⟨2, _⟩ => rfl)
  rw [val_main_v4_apply, val_main_v2_apply, val_main_v3_apply]
  simp only [e]
  rfl

/-- THE REFERENCE'S RESULT at (query b, class c) is the specification's expression of the two flattened arrays. -/
theorem result_apply (b : Fin 128) (cl : Fin 64) :
    val_main_v18 (F := Ideal) x0 x1 (ix2 b cl)
      = negDist (val_main_v1 (F := Ideal) x0) (val_main_v0 (F := Ideal) x1) b cl := by
  have e12 : idx_main_v12 (ix2 b cl) = ix2 b (0 : Fin 1) := funext fun a => Fin.ext (by
    match a with | ⟨0, _⟩ => rfl | ⟨1, _⟩ => rfl)
  have e7 : idx_main_v7 (ix2 b (0 : Fin 1)) = ix1 b := funext fun a => Fin.ext (by
    match a with | ⟨0, _⟩ => rfl)
  have e6 : ∀ k : Fin 16000, idx_main_v6 (ix1 b) k = ix2 b k := fun k => funext fun a => Fin.ext (by
    match a with | ⟨0, _⟩ => rfl | ⟨1, _⟩ => rfl)
  have e13 : idx_main_v13 (ix2 b cl) = ix2 (0 : Fin 1) cl := funext fun a => Fin.ext (by
    match a with | ⟨0, _⟩ => rfl | ⟨1, _⟩ => rfl)
  have e10 : idx_main_v10 (ix2 (0 : Fin 1) cl) = ix1 cl := funext fun a => Fin.ext (by
    match a with | ⟨0, _⟩ => rfl)
  have e9 : ∀ k : Fin 16000, idx_main_v9 (ix1 cl) k = ix2 cl k := fun k => funext fun a => Fin.ext (by
    match a with | ⟨0, _⟩ => rfl | ⟨1, _⟩ => rfl)
  have el : ∀ k : Fin 16000, lidx_main_v11 (ix2 b cl) k = ix2 b k := fun k => funext fun a => Fin.ext (by
    match a with | ⟨0, _⟩ => rfl | ⟨1, _⟩ => rfl)
  have er : ∀ k : Fin 16000, ridx_main_v11 (ix2 b cl) k = ix2 cl k := fun k => funext fun a => Fin.ext (by
    match a with | ⟨0, _⟩ => rfl | ⟨1, _⟩ => rfl)
  rw [val_main_v18_apply, val_main_v17_apply, val_main_v14_apply, val_main_v16_apply,
    val_main_v12_apply, e12, val_main_v7_apply, e7, val_main_v6_apply,
    val_main_v13_apply, e13, val_main_v10_apply, e10, val_main_v9_apply,
    val_main_v15_apply, val_main_v11_apply]
  simp only [e6, e9, el, er, val_main_v5_apply, val_main_v8_apply, proto_eq]
  rfl

end Cert.ReferenceIdeal.RefResult

end
-- ==== Proof.lean ====
/-
  Negative squared distances between 128 queries and 64 class prototypes (each the mean of 128 support shots over
  16000 features): a kernel that walks the features in 25 tiles of 640 per half of the classes, against a plain
  whole-array computation.

  Over the extended reals both programs compute, at (query b, class c),
      −( (Σ_f Q(b,f)² + Σ_f P(c,f)²) − 2 · Σ_f Q(b,f) · P(c,f) ),   P(c,f) = (Σ_s S(c,s,f)) / 128,
  of the flattened arguments Q and S. The kernel keeps three running totals per class half — the queries' squared
  norms, the prototypes' squared norms and the dot products — each reset to zero at the first feature tile and grown
  by one tile's partial sum per grid point; after the last tile it writes −((x² + y²) − 2·xy) as 0 − (…) into the class
  half's 32 rows of a 64 × 128 array, which the host transposes. The reference takes each sum whole. The two agree
  because a sum over 25·640 positions is the sum of its 25 tile sums, the f32 zero is the additive unit,
  multiplication commutes and 0 − x = −x: laws of the extended reals that hold at the infinities too, so the
  finiteness of the inputs is not used.

  The modules: Spec (the result as one function of Q and S, in both spellings, and their equality), LibTileSum
  (sums by tiles), LibMidSum and LibRowOps (reductions and column forms read at an index), Steps and StepValues (what
  one grid point leaves in the accumulators and the output block, as values), StepTiles (the same in the
  specification's terms), Accum (the running totals after every point, by induction on the point), KernelResult (the
  kernel's result array and its run), RefResult (the reference's result read entry by entry). Below: the two results
  are one array, and the five claims.
-/
import proofs.«120106_j4698694222630_2_alg».proof.Defs
import proofs.«120106_j4698694222630_2_alg».proof.Proof.Gen.Kernel
import proofs.«120106_j4698694222630_2_alg».proof.Proof.Gen.Kernel.Skeleton
import proofs.«120106_j4698694222630_2_alg».proof.Proof.Gen.Kernel.Launch
import proofs.«120106_j4698694222630_2_alg».proof.Proof.Gen.Kernel.Points
import proofs.«120106_j4698694222630_2_alg».proof.Proof.Gen.Kernel.Frame
import proofs.«120106_j4698694222630_2_alg».proof.Proof.Gen.KernelIdeal
import proofs.«120106_j4698694222630_2_alg».proof.Proof.Gen.KernelIdeal.Skeleton
import proofs.«120106_j4698694222630_2_alg».proof.Proof.Gen.KernelIdeal.Launch
import proofs.«120106_j4698694222630_2_alg».proof.Proof.Gen.KernelIdeal.Points
import proofs.«120106_j4698694222630_2_alg».proof.Proof.Gen.KernelIdeal.Frame
import proofs.«120106_j4698694222630_2_alg».proof.Proof.Gen.ReferenceIdeal
import proofs.«120106_j4698694222630_2_alg».proof.Proof.Gen.ReferenceIdeal.Run
import proofs.«120106_j4698694222630_2_alg».proof.Proof.Gen.ReferenceIdeal.Read
import proofs.«120106_j4698694222630_2_alg».proof.Proof.Gen.Pre_finite_inputs
import proofs.«120106_j4698694222630_2_alg».proof.Proof.KernelResult
import proofs.«120106_j4698694222630_2_alg».proof.Proof.RefResult
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result of the kernel's two arguments is the kernel's result array: entry by entry both are the
    specification's value of the flattened arguments, in the reference's spelling and in the kernel's. -/
theorem results_agree (m : (ℓ : Loc Cert.KernelIdeal.nD Cert.KernelIdeal.τ Cert.KernelIdeal.sig) → Buf (Elt Ideal) ℓ)
    (c : Dev Cert.KernelIdeal.nD) :
    (Cert.ReferenceIdeal.Read.val_main_v18 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      : (⟨2, ![128, 64]⟩ : Shape).Idx → EReal)
      = Cert.KernelIdeal.Result.res m c := by
  funext i
  obtain ⟨b, cl, rfl⟩ : ∃ (b : Fin 128) (cl : Fin 64), i = ix2 b cl := ⟨i 0, i 1, eq_ix2 i⟩
  rw [Cert.ReferenceIdeal.RefResult.result_apply, Cert.KernelIdeal.Result.res_apply, Cert.Proto.negDistK_eq,
    Cert.KernelIdeal.Result.V_v0, Cert.KernelIdeal.Result.V_v1]
  rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs run, and the reference's result is the kernel's result
    array. -/
theorem algebraic : Cert.algebraic_KernelIdeal_ReferenceIdeal := by
  intro m ρ m' ρ' _ hagree
  refine ⟨fun c => Cert.KernelIdeal.Result.res m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v18_eq]
  exact results_agree m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
